-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S100000x128 : Shape := ⟨2, ![100000, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S100000x128 : S_.BroadcastsInDim S100000x128 (![] : Fin 0 → Fin S100000x128.rank)
  reducesTo_S100000x128_S_d0_1 : S100000x128.ReducesTo [0, 1] S_

variable [Facts]

def fn_part3 {F : FTy → Type} [FloatOps F] (main_v48 : IVec S_ 1) (main_v49 : FVec F S100000x128 .f32) (main_v50 : FVec F S100000x128 .f32) : IVec S_ 1 :=
  let main_v51 : IVec S100000x128 1 := cmpf .olt main_v49 main_v50
  let main_c_19 : IVec S_ 1 := constantI S_ 1 1#1
  let main_v52 : IVec S_ 1 := (fun x v => Host.reduce IntOp.andi x v reducesTo_S100000x128_S_d0_1 h_S_) main_v51 main_c_19
  let main_v53 : IVec S_ 1 := andi main_v48 main_v52
  main_v53

def fn_part2 {F : FTy → Type} [FloatOps F] (main_arg9 : FVec F S32 .f32) (main_arg10 : FVec F S32x16 .f32) (main_arg11 : FVec F S16 .f32) (main_arg12 : FVec F S100000x128 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S100000x128 .f32 := Host.absf main_arg12
  let main_cst_18 : FVec F S_ .f32 := constant S_ .f32 0x7F800000#32
  let main_v50 : FVec F S100000x128 .f32 := broadcastInDim S100000x128 ![] bcast_S_S100000x128 main_cst_18
  fn_part3 (F := F) main_v48 main_v49 main_v50

def fn_part1 {F : FTy → Type} [FloatOps F] (main_arg6 : FVec F S128x64 .f32) (main_arg7 : FVec F S64 .f32) (main_arg8 : FVec F S64x32 .f32) (main_arg9 : FVec F S32 .f32) (main_arg10 : FVec F S32x16 .f32) (main_arg11 : FVec F S16 .f32) (main_arg12 : FVec F S100000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x64 .f32) (main_arg7 : FVec F S64 .f32) (main_arg8 : FVec F S64x32 .f32) (main_arg9 : FVec F S32 .f32) (main_arg10 : FVec F S32x16 .f32) (main_arg11 : FVec F S16 .f32) (main_arg12 : FVec F S100000x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S1x32 : Shape := ⟨2, ![1, 32]⟩
abbrev S1x16 : Shape := ⟨2, ![1, 16]⟩
abbrev S100000x16 : Shape := ⟨2, ![100000, 16]⟩
abbrev S5000x16 : Shape := ⟨2, ![5000, 16]⟩
abbrev S5000x32 : Shape := ⟨2, ![5000, 32]⟩

abbrev nBuf : Space → Nat
  | .hbm => 52
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S100000x128, .f32⟩
  | .hbm, ⟨13, _⟩ => ⟨S100000x128, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x64, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x32, .f32⟩
  | .hbm, ⟨50, _⟩ => ⟨S1x16, .f32⟩
  | .hbm, ⟨51, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S128x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x16, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S32_S1x32 : S32.ShapeCasts S1x32
  shapeCasts_S16_S1x16 : S16.ShapeCasts S1x16
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S100000x16.size a
  hwx2_6 : ∀ i : grid2.Coords, EltTy.bits .f32 = 32 ∨ (Rect.block (s := S100000x16) S5000x16.size (cc2_transform_6 i) (hinb2_6 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S100000x128, .f32⟩
  | .hbm, ⟨13, _⟩ => ⟨S100000x128, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S_, .f32⟩
  | .hbm, ⟨35, _⟩ => ⟨S100000x128, .f32⟩
  | .hbm, ⟨36, _⟩ => ⟨S100000x128, .i1⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S_, .f32⟩
  | .hbm, ⟨64, _⟩ => ⟨S100000x64, .f32⟩
  | .hbm, ⟨65, _⟩ => ⟨S100000x64, .i1⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x32, .f32⟩
  | .hbm, ⟨71, _⟩ => ⟨S1x32, .f32⟩
  | .hbm, ⟨72, _⟩ => ⟨S100000x32, .f32⟩
  | .hbm, ⟨73, _⟩ => ⟨S100000x32, .f32⟩
  | .hbm, ⟨74, _⟩ => ⟨S_, .f32⟩
  | .hbm, ⟨75, _⟩ => ⟨S_, .f32⟩
  | .hbm, ⟨76, _⟩ => ⟨S100000x32, .f32⟩
  | .hbm, ⟨77, _⟩ => ⟨S100000x32, .i1⟩
  | .hbm, ⟨78, _⟩ => ⟨S_, .f32⟩
  | .hbm, ⟨79, _⟩ => ⟨S100000x32, .f32⟩
  | .hbm, ⟨80, _⟩ => ⟨S100000x32, .f32⟩
  | .hbm, ⟨81, _⟩ => ⟨S100000x32, .f32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KSpec.lean ====
/-
  The host steps of the tiled program between its three dense stages, named: message passing A·h over the edge list
  (gather the rows h[col[e], :], scale each by edge_w[e], scatter-add them into row row[e] of a zero table), and a
  bias vector laid out as a one-row matrix.
-/
import proofs.«162216_j50087908606138_1_alg».proof.KernelIdeal

noncomputable section

namespace Cert.KernelIdeal.KSpec

open Idealize.ShloMosaic Idealize.SL.Sem Cert.KernelIdeal Cert.KernelIdeal.Facts₀

variable {F : FTy → Type} [FloatOps F] [Facts]

/-- The column of start rows of the gather: a negative node number counts from the end of the table. -/
def startRows (col : (⟨S1600000, .i32⟩ : BufTy).Contents (Elt F)) : (⟨S1600000x1, .i32⟩ : BufTy).Contents (Elt F) :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- Message passing over a table of 128 columns: A·h. -/
def pass128 (h : (⟨S100000x128, .f32⟩ : BufTy).Contents (Elt F)) (row col : (⟨S1600000, .i32⟩ : BufTy).Contents (Elt F))
    (ew : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 ew))
      (Host.gather gather_S100000x128_S1600000x1_S1600000x128_1_0_n_n_0_1_1128 h (startRows col)))

/-- Message passing over a table of 64 columns: A·h. -/
def pass64 (h : (⟨S100000x64, .f32⟩ : BufTy).Contents (Elt F)) (row col : (⟨S1600000, .i32⟩ : BufTy).Contents (Elt F))
    (ew : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1
        (broadcastInDim S1600000x1 ![0] bcast_S1600000_S1600000x1_0 ew))
      (Host.gather gather_S100000x64_S1600000x1_S1600000x64_1_0_n_n_0_1_164 h (startRows col)))

/-- A bias vector of 128 entries as a matrix of one row. -/
def row128 (b : (⟨S128, .f32⟩ : BufTy).Contents (Elt F)) : (⟨S1x128, .f32⟩ : BufTy).Contents (Elt F) :=
  fun i => shapeCast S1x128 b shapeCasts_S128_S1x128 i
/-- A bias vector of 64 entries as a matrix of one row. -/
def row64 (b : (⟨S64, .f32⟩ : BufTy).Contents (Elt F)) : (⟨S1x64, .f32⟩ : BufTy).Contents (Elt F) :=
  fun i => shapeCast S1x64 b shapeCasts_S64_S1x64 i
/-- A bias vector of 32 entries as a matrix of one row. -/
def row32 (b : (⟨S32, .f32⟩ : BufTy).Contents (Elt F)) : (⟨S1x32, .f32⟩ : BufTy).Contents (Elt F) :=
  fun i => shapeCast S1x32 b shapeCasts_S32_S1x32 i
/-- A bias vector of 16 entries as a matrix of one row. -/
def row16 (b : (⟨S16, .f32⟩ : BufTy).Contents (Elt F)) : (⟨S1x16, .f32⟩ : BufTy).Contents (Elt F) :=
  fun i => shapeCast S1x16 b shapeCasts_S16_S1x16 i

end Cert.KernelIdeal.KSpec

end
-- ==== Proof.KRun.lean ====
/-
  The tiled program's run with its result buffer named, and what its buffers hold at the boundaries between the host
  steps and the three dense stages.

  The program is: a dense stage (x·W1 → g1); on the host, message passing A·g1 over the edge list and the first bias
  laid out as a one-row matrix; a second dense stage ((lrelu(A·g1 + b1) ∘ mask)·W2 → g2); on the host, message
  passing A·g2 and the three remaining biases laid out as one-row matrices; a third dense stage producing the result.
-/
import proofs.«162216_j50087908606138_1_alg».proof.Proof.Gen.KernelIdeal.Frame
import proofs.«162216_j50087908606138_1_alg».proof.Proof.KSpec

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer named -/

set_option backward.isDefEq.respectTransparency.types false in
/-- From any memory with zero counters, every weakly fair execution of the program on the TensorCores terminates,
    nothing faulting; in every final state the result buffer holds what the last boundary's contents give it, and the
    thirteen argument arrays are as launched. -/
theorem run : θ_run defs (onTc (τ := τ) (main (F := F))) ⟨m, fun _ => 0, ρ⟩ (fun r => ∀ c : Dev nD,
      r.2.mem ((c.tc : Thread nD τ).loc main_v32) = Gen.W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v32 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

/-! ## The host steps over any contents -/

section Host

variable (W : Valuation τ sig (Elt F))

/-- The buffers the first host stretch writes. -/
abbrev wr1 : List (Ref sig .tc) :=
  [main_v1, main_c, main_v2, main_v3, main_c_0, main_v4, main_v5, main_v6, main_v7, main_v8, main_v9, main_v10,
   main_cst, main_v11, main_v12, main_v13, main_v14]
/-- The buffers the second host stretch writes. -/
abbrev wr2 : List (Ref sig .tc) :=
  [main_v16, main_c_1, main_v17, main_v18, main_c_2, main_v19, main_v20, main_v21, main_v22, main_v23, main_v24, main_v25,
   main_cst_3, main_v26, main_v27, main_v28, main_v29, main_v30, main_v31]

/-- A buffer the first host stretch does not write keeps its contents. -/
theorem host1_keep (r : Ref sig .tc) (hr : r ∉ wr1) :
    StableHlo.after hostOps1 W (Proc.devRef .tc r) = W (Proc.devRef .tc r) :=
  StableHlo.after_of_writes_sub (W := wr1) hostOps1 W (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

/-- A buffer the second host stretch does not write keeps its contents. -/
theorem host2_keep (r : Ref sig .tc) (hr : r ∉ wr2) :
    StableHlo.after hostOps2 W (Proc.devRef .tc r) = W (Proc.devRef .tc r) :=
  StableHlo.after_of_writes_sub (W := wr2) hostOps2 W (by
    simp only [hostOps2, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

/-- The first host stretch leaves in `main_v13` the message passing A·h of the table h held in `main_v0`, over the
    edge list (rows `main_arg1`, columns `main_arg2`, weights `main_arg3`). -/
theorem host1_v13 : StableHlo.after hostOps1 W (Proc.devRef .tc main_v13)
    = KSpec.pass128 (W (Proc.devRef .tc main_v0)) (W (Proc.devRef .tc main_arg1)) (W (Proc.devRef .tc main_arg2))
        (W (Proc.devRef .tc main_arg3)) := by
  simp only [hostOps1]
  after_results
  rfl

/-- and in `main_v14` the bias `main_arg5` as a one-row matrix. -/
theorem host1_v14 : StableHlo.after hostOps1 W (Proc.devRef .tc main_v14) = KSpec.row128 (W (Proc.devRef .tc main_arg5)) := by
  simp only [hostOps1]
  after_results
  rfl

/-- The second host stretch leaves in `main_v28` the message passing A·h of the table h held in `main_v15`, over the
    same edge list. -/
theorem host2_v28 : StableHlo.after hostOps2 W (Proc.devRef .tc main_v28)
    = KSpec.pass64 (W (Proc.devRef .tc main_v15)) (W (Proc.devRef .tc main_arg1)) (W (Proc.devRef .tc main_arg2))
        (W (Proc.devRef .tc main_arg3)) := by
  simp only [hostOps2]
  after_results_simp
  rfl

/-- and in `main_v29`, `main_v30`, `main_v31` the biases `main_arg7`, `main_arg9`, `main_arg11` as one-row matrices. -/
theorem host2_v29 : StableHlo.after hostOps2 W (Proc.devRef .tc main_v29) = KSpec.row64 (W (Proc.devRef .tc main_arg7)) := by
  simp only [hostOps2]
  after_results
  rfl
theorem host2_v30 : StableHlo.after hostOps2 W (Proc.devRef .tc main_v30) = KSpec.row32 (W (Proc.devRef .tc main_arg9)) := by
  simp only [hostOps2]
  after_results
  rfl
theorem host2_v31 : StableHlo.after hostOps2 W (Proc.devRef .tc main_v31) = KSpec.row16 (W (Proc.devRef .tc main_arg11)) := by
  simp only [hostOps2]
  after_results
  rfl

end Host

/-! ## A buffer nothing has written yet is as launched

The boundaries are: 0 the launch; 1 after the first dense stage; 2 after the first host stretch; 3 after the second
dense stage; 4 after the second host stretch; 5 after the third dense stage. A dense stage rewrites only its own
arrays (and an input array it leaves as entered); a host stretch rewrites only the buffers it assigns. -/

section Keep

variable (c : Dev nD) (b : Ref sig .tc)

theorem W1_keep (h0 : ∀ w, Pipeline.arrRef spec0 w ≠ b) :
    Gen.W1 m ρ c (Proc.devRef .tc b) = m ((c.tc : Thread nD τ).loc b) :=
  (Gen.W1_of_ne m ρ c b h0).trans rfl

theorem W2_keep (h0 : ∀ w, Pipeline.arrRef spec0 w ≠ b) (h1 : b ∉ wr1) :
    Gen.W2 m ρ c (Proc.devRef .tc b) = m ((c.tc : Thread nD τ).loc b) :=
  (host1_keep (Gen.W1 m ρ c) b h1).trans (W1_keep m ρ c b h0)

theorem W3_keep (h0 : ∀ w, Pipeline.arrRef spec0 w ≠ b) (h1 : b ∉ wr1) (h2 : ∀ w, Pipeline.arrRef spec1 w ≠ b) :
    Gen.W3 m ρ c (Proc.devRef .tc b) = m ((c.tc : Thread nD τ).loc b) :=
  (Gen.W3_of_ne m ρ c b h2).trans (W2_keep m ρ c b h0 h1)

theorem W4_keep (h0 : ∀ w, Pipeline.arrRef spec0 w ≠ b) (h1 : b ∉ wr1) (h2 : ∀ w, Pipeline.arrRef spec1 w ≠ b)
    (h3 : b ∉ wr2) :
    Gen.W4 m ρ c (Proc.devRef .tc b) = m ((c.tc : Thread nD τ).loc b) :=
  (host2_keep (Gen.W3 m ρ c) b h3).trans (W3_keep m ρ c b h0 h1 h2)

end Keep

/-! ## What the boundaries hold -/

section Boundaries

variable (c : Dev nD)

/-- The first dense stage is entered with the node features and the first weight matrix as launched. -/
theorem V0_arg0 : Gen.V0 m ρ c main_arg0 = m ((c.tc : Thread nD τ).loc main_arg0) := rfl
theorem V0_arg4 : Gen.V0 m ρ c main_arg4 = m ((c.tc : Thread nD τ).loc main_arg4) := rfl

/-- After the first dense stage `main_v0` holds the table g1 its write-backs leave. -/
theorem V1_v0 : Gen.V1 m ρ c main_v0 = (Gen.dat0 (Gen.V0 m ρ) c).arrAt 2 cfg0.N := Gen.W1_arr m ρ c 2

/-- The second dense stage is entered with A·g1 in `main_v13`, -/
theorem V2_v13 : Gen.V2 m ρ c main_v13
    = KSpec.pass128 (Gen.V1 m ρ c main_v0) (m ((c.tc : Thread nD τ).loc main_arg1)) (m ((c.tc : Thread nD τ).loc main_arg2))
        (m ((c.tc : Thread nD τ).loc main_arg3)) := by
  have h := host1_v13 (Gen.W1 m ρ c)
  rw [W1_keep m ρ c main_arg1 (by decide), W1_keep m ρ c main_arg2 (by decide), W1_keep m ρ c main_arg3 (by decide)] at h
  exact h
/-- the first bias as a one-row matrix in `main_v14`, -/
theorem V2_v14 : Gen.V2 m ρ c main_v14 = KSpec.row128 (m ((c.tc : Thread nD τ).loc main_arg5)) := by
  have h := host1_v14 (Gen.W1 m ρ c)
  rw [W1_keep m ρ c main_arg5 (by decide)] at h
  exact h
/-- and the mask and the second weight matrix as launched. -/
theorem V2_arg12 : Gen.V2 m ρ c main_arg12 = m ((c.tc : Thread nD τ).loc main_arg12) :=
  W2_keep m ρ c main_arg12 (by decide) (by decide)
theorem V2_arg6 : Gen.V2 m ρ c main_arg6 = m ((c.tc : Thread nD τ).loc main_arg6) :=
  W2_keep m ρ c main_arg6 (by decide) (by decide)

/-- After the second dense stage `main_v15` holds the table g2 its write-backs leave. -/
theorem V3_v15 : Gen.V3 m ρ c main_v15 = (Gen.dat1 (Gen.V2 m ρ) c).arrAt 4 cfg1.N := Gen.W3_arr m ρ c 4

/-- The third dense stage is entered with A·g2 in `main_v28`, -/
theorem V4_v28 : Gen.V4 m ρ c main_v28
    = KSpec.pass64 (Gen.V3 m ρ c main_v15) (m ((c.tc : Thread nD τ).loc main_arg1)) (m ((c.tc : Thread nD τ).loc main_arg2))
        (m ((c.tc : Thread nD τ).loc main_arg3)) := by
  have h := host2_v28 (Gen.W3 m ρ c)
  rw [W3_keep m ρ c main_arg1 (by decide) (by decide) (by decide), W3_keep m ρ c main_arg2 (by decide) (by decide) (by decide),
    W3_keep m ρ c main_arg3 (by decide) (by decide) (by decide)] at h
  exact h
/-- the three remaining biases as one-row matrices in `main_v29`, `main_v30`, `main_v31`, -/
theorem V4_v29 : Gen.V4 m ρ c main_v29 = KSpec.row64 (m ((c.tc : Thread nD τ).loc main_arg7)) := by
  have h := host2_v29 (Gen.W3 m ρ c)
  rw [W3_keep m ρ c main_arg7 (by decide) (by decide) (by decide)] at h
  exact h
theorem V4_v30 : Gen.V4 m ρ c main_v30 = KSpec.row32 (m ((c.tc : Thread nD τ).loc main_arg9)) := by
  have h := host2_v30 (Gen.W3 m ρ c)
  rw [W3_keep m ρ c main_arg9 (by decide) (by decide) (by decide)] at h
  exact h
theorem V4_v31 : Gen.V4 m ρ c main_v31 = KSpec.row16 (m ((c.tc : Thread nD τ).loc main_arg11)) := by
  have h := host2_v31 (Gen.W3 m ρ c)
  rw [W3_keep m ρ c main_arg11 (by decide) (by decide) (by decide)] at h
  exact h
/-- and the third and fourth weight matrices as launched. -/
theorem V4_arg8 : Gen.V4 m ρ c main_arg8 = m ((c.tc : Thread nD τ).loc main_arg8) :=
  W4_keep m ρ c main_arg8 (by decide) (by decide) (by decide) (by decide)
theorem V4_arg10 : Gen.V4 m ρ c main_arg10 = m ((c.tc : Thread nD τ).loc main_arg10) :=
  W4_keep m ρ c main_arg10 (by decide) (by decide) (by decide) (by decide)

/-- After the third dense stage the result buffer holds what its write-backs leave. -/
theorem out_eq : Gen.W5 m ρ c (Proc.devRef .tc main_v32) = (Gen.dat2 (Gen.V4 m ρ) c).arrAt 6 cfg2.N := Gen.W5_arr m ρ c 6

end Boundaries

end Cert.KernelIdeal.KRun

end
-- ==== Proof.RefSpec.lean ====
/-
  The graph network as one function of its thirteen arguments, in the reference's own operations.

  A layer of message passing sends a node table h to  A·h, where A is the weighted adjacency matrix of the edge list
  (row, col, edge_w): every edge e adds edge_w[e] · h[col[e], :] into row row[e] of a zero table (a gather of rows, a
  product with the edge weight spread along the row, a scatter-add).  The network is
      out = lrelu(lrelu(A·(lrelu(A·(x·W1) + b1) ∘ mask · W2) + b2)·W3 + b3)·W4 + b4
  with lrelu v = v where v ≥ 0 and 0.2·v elsewhere.  It is cut here where the tiled program is cut into its three
  dense stages, with the message passing between them.
-/
import proofs.«162216_j50087908606138_1_alg».proof.ReferenceIdeal

noncomputable section

namespace Cert.ReferenceIdeal.Spec

open Idealize.ShloMosaic Idealize.SL.Sem Cert.ReferenceIdeal Cert.ReferenceIdeal.Facts₀

variable {F : FTy → Type} [FloatOps F] [Facts]

/-- The column of start rows of the gather: a negative node number counts from the end of the table. -/
def startRows (col : (⟨S1600000, .i32⟩ : BufTy).Contents (Elt F)) : (⟨S1600000x1, .i32⟩ : BufTy).Contents (Elt F) :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- Message passing over a table of 128 columns: A·h. -/
def pass128 (h : (⟨S100000x128, .f32⟩ : BufTy).Contents (Elt F)) (row col : (⟨S1600000, .i32⟩ : BufTy).Contents (Elt F))
    (ew : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 ew))
      (Host.gather gather_S100000x128_S1600000x1_S1600000x128_1_0_n_n_0_1_1128 h (startRows col)))

/-- Message passing over a table of 64 columns: A·h. -/
def pass64 (h : (⟨S100000x64, .f32⟩ : BufTy).Contents (Elt F)) (row col : (⟨S1600000, .i32⟩ : BufTy).Contents (Elt F))
    (ew : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1
        (broadcastInDim S1600000x1 ![0] bcast_S1600000_S1600000x1_0 ew))
      (Host.gather gather_S100000x64_S1600000x1_S1600000x64_1_0_n_n_0_1_164 h (startRows col)))

/-- lrelu on a table of 128 columns: v where v ≥ 0, 0.2·v elsewhere. -/
def lrelu128 (v : (⟨S100000x128, .f32⟩ : BufTy).Contents (Elt F)) : (⟨S100000x128, .f32⟩ : BufTy).Contents (Elt F) :=
  select (cmpf .oge v (broadcastInDim S100000x128 ![] bcast_S_S100000x128 (constant S_ .f32 0x00000000#32))) v
    (mulf (broadcastInDim S100000x128 ![] bcast_S_S100000x128 (id (constant S_ .f32 0x3E4CCCCD#32))) v)

/-- lrelu on a table of 64 columns. -/
def lrelu64 (v : (⟨S100000x64, .f32⟩ : BufTy).Contents (Elt F)) : (⟨S100000x64, .f32⟩ : BufTy).Contents (Elt F) :=
  select (cmpf .oge v (broadcastInDim S100000x64 ![] bcast_S_S100000x64 (constant S_ .f32 0x00000000#32))) v
    (mulf (broadcastInDim S100000x64 ![] bcast_S_S100000x64 (id (constant S_ .f32 0x3E4CCCCD#32))) v)

/-- lrelu on a table of 32 columns. -/
def lrelu32 (v : (⟨S100000x32, .f32⟩ : BufTy).Contents (Elt F)) : (⟨S100000x32, .f32⟩ : BufTy).Contents (Elt F) :=
  select (cmpf .oge v (broadcastInDim S100000x32 ![] bcast_S_S100000x32 (constant S_ .f32 0x00000000#32))) v
    (mulf (broadcastInDim S100000x32 ![] bcast_S_S100000x32 (id (constant S_ .f32 0x3E4CCCCD#32))) v)

/-- The first dense stage: x·W1. -/
def dense1 (x : (⟨S100000x256, .f32⟩ : BufTy).Contents (Elt F)) (w1 : (⟨S256x128, .f32⟩ : BufTy).Contents (Elt F)) :
    (⟨S100000x128, .f32⟩ : BufTy).Contents (Elt F) :=
  Host.dotGeneral dot_S100000x256_S256x128_S100000x128_1_0_0_1_n_n none x w1

/-- The second dense stage: (lrelu(h + b1) ∘ mask)·W2. -/
def dense2 (h : (⟨S100000x128, .f32⟩ : BufTy).Contents (Elt F)) (b1 : (⟨S128, .f32⟩ : BufTy).Contents (Elt F))
    (mask : (⟨S100000x128, .f32⟩ : BufTy).Contents (Elt F)) (w2 : (⟨S128x64, .f32⟩ : BufTy).Contents (Elt F)) :
    (⟨S100000x64, .f32⟩ : BufTy).Contents (Elt F) :=
  Host.dotGeneral dot_S100000x128_S128x64_S100000x64_1_0_0_1_n_n none
    (mulf (lrelu128 (addf h (broadcastInDim S100000x128 ![0, 1] bcast_S1x128_S100000x128_0_1
      (broadcastInDim S1x128 ![1] bcast_S128_S1x128_1 b1)))) mask) w2

/-- The third dense stage: lrelu(lrelu(h + b2)·W3 + b3)·W4 + b4. -/
def dense3 (h : (⟨S100000x64, .f32⟩ : BufTy).Contents (Elt F)) (b2 : (⟨S64, .f32⟩ : BufTy).Contents (Elt F))
    (w3 : (⟨S64x32, .f32⟩ : BufTy).Contents (Elt F)) (b3 : (⟨S32, .f32⟩ : BufTy).Contents (Elt F))
    (w4 : (⟨S32x16, .f32⟩ : BufTy).Contents (Elt F)) (b4 : (⟨S16, .f32⟩ : BufTy).Contents (Elt F)) :
    (⟨S100000x16, .f32⟩ : BufTy).Contents (Elt F) :=
  addf (Host.dotGeneral dot_S100000x32_S32x16_S100000x16_1_0_0_1_n_n none
      (lrelu32 (addf (Host.dotGeneral dot_S100000x64_S64x32_S100000x32_1_0_0_1_n_n none
          (lrelu64 (addf h (broadcastInDim S100000x64 ![0, 1] bcast_S1x64_S100000x64_0_1
            (broadcastInDim S1x64 ![1] bcast_S64_S1x64_1 b2)))) w3)
        (broadcastInDim S100000x32 ![0, 1] bcast_S1x32_S100000x32_0_1 (broadcastInDim S1x32 ![1] bcast_S32_S1x32_1 b3)))) w4)
    (broadcastInDim S100000x16 ![0, 1] bcast_S1x16_S100000x16_0_1 (broadcastInDim S1x16 ![1] bcast_S16_S1x16_1 b4))

/-- The whole network. -/
def net (x : (⟨S100000x256, .f32⟩ : BufTy).Contents (Elt F)) (row col : (⟨S1600000, .i32⟩ : BufTy).Contents (Elt F))
    (ew : (⟨S1600000, .f32⟩ : BufTy).Contents (Elt F)) (w1 : (⟨S256x128, .f32⟩ : BufTy).Contents (Elt F))
    (b1 : (⟨S128, .f32⟩ : BufTy).Contents (Elt F)) (w2 : (⟨S128x64, .f32⟩ : BufTy).Contents (Elt F))
    (b2 : (⟨S64, .f32⟩ : BufTy).Contents (Elt F)) (w3 : (⟨S64x32, .f32⟩ : BufTy).Contents (Elt F))
    (b3 : (⟨S32, .f32⟩ : BufTy).Contents (Elt F)) (w4 : (⟨S32x16, .f32⟩ : BufTy).Contents (Elt F))
    (b4 : (⟨S16, .f32⟩ : BufTy).Contents (Elt F)) (mask : (⟨S100000x128, .f32⟩ : BufTy).Contents (Elt F)) :
    (⟨S100000x16, .f32⟩ : BufTy).Contents (Elt F) :=
  dense3 (pass64 (dense2 (pass128 (dense1 x w1) row col ew) b1 mask w2) row col ew) b2 w3 b3 w4 b4

end Cert.ReferenceIdeal.Spec

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Region0.lean ====
/-
  The first dense stage, x·W1, tile by tile.

  The grid has 20 points; point t reads rows 5000·t … 5000·t + 4999 of x and all of W1, and writes the same rows of
  the result: entry (p, q) of its tile is the sum over k < 256 of x[5000·t + p, k] · W1[k, q] (rounding to the
  narrower float format on the way into the matrix unit is the identity on exact values, and the accumulator starts
  at zero). That is entry (5000·t + p, q) of the host's product of the whole arrays, and the 20 tiles cover all
  100000 rows, so after the region the result array is the host's product.
-/
import proofs.«162216_j50087908606138_1_alg».proof.Proof.Gen.KernelIdeal.Frame
import proofs.«162216_j50087908606138_1_alg».proof.Proof.Gen.ReferenceIdeal
import proofs.«162216_j50087908606138_1_alg».proof.Proof.RefSpec
import proofs.«162216_j50087908606138_1_alg».proof.Proof.LibPlainContract
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem pay_at (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.LibPlainContract.matmul_plain_apply 5000 256 128 none _ _ p q

theorem dense1_at (x : (⟨Cert.ReferenceIdeal.S100000x256, .f32⟩ : BufTy).Contents (Elt Ideal))
    (w : (⟨Cert.ReferenceIdeal.S256x128, .f32⟩ : BufTy).Contents (Elt Ideal)) (P : Fin 100000) (q : Fin 128) :
    Cert.ReferenceIdeal.Spec.dense1 x w (ix2 P q) = ∑ k : Fin 256, x (ix2 P k) * w (ix2 k q) := by
  unfold Cert.ReferenceIdeal.Spec.dense1
  exact Cert.LibPlainContract.dotGeneral_plain_apply 100000 256 128 none .single x w P q

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Row p of tile t is row 5000·t + p of the table. -/
def rowOf (t : Fin cfg0.N) (p : Fin 5000) : Fin 100000 := ⟨t.val * 5000 + p.val, by have := t_lt t; have := p.isLt; omega⟩

theorem emb0 (t : Fin cfg0.N) (p : Fin 5000) (k : Fin 256) :
    ((cfg0.win 0).blk t).view.emb (ix2 p k) = ix2 (rowOf t p) k := by
  obtain ⟨e0, e1, e2, e3, e4, e5⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega

theorem emb1 (t : Fin cfg0.N) (k : Fin 256) (q : Fin 128) :
    ((cfg0.win 1).blk t).view.emb (ix2 k q) = ix2 k q := by
  obtain ⟨e0, e1, e2, e3, e4, e5⟩ := idx_facts t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

theorem emb2 (t : Fin cfg0.N) (p : Fin 5000) (q : Fin 128) :
    ((cfg0.win 2).blk t).view.emb (ix2 p q) = ix2 (rowOf t p) q := by
  obtain ⟨e0, e1, e2, e3, e4, e5⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

theorem flushed_eq (c : Dev nD) (t : Fin cfg0.N) :
    (dat0 V c).flushed 2 t = ((cfg0.win 2).blk t).view.read (Elt Ideal)
      (Cert.ReferenceIdeal.Spec.dense1 (V c main_arg0) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
      = Cert.ReferenceIdeal.Spec.dense1 (V c main_arg0) (V c main_arg4) (((cfg0.win 2).blk t).view.emb (ix2 p q))
  refine (pay_at (iblk0 V c 0 t) (iblk0 V c 1 t) p q).trans ?_
  rw [emb2, dense1_at]
  refine Finset.sum_congr rfl fun k _ => ?_
  have h0 : iblk0 V c 0 t (ix2 p k) = V c main_arg0 (ix2 (rowOf t p) k) := by
    show V c main_arg0 (((cfg0.win 0).blk t).view.emb (ix2 p k)) = _
    rw [emb0]
  have h1 : iblk0 V c 1 t (ix2 k q) = V c main_arg4 (ix2 k q) := by
    show V c main_arg4 (((cfg0.win 1).blk t).view.emb (ix2 k q)) = _
    rw [emb1]
  rw [h0, h1]

theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val ∧ (i 1).val < win0_2.index ⟨(i 0).val / 5000, _⟩ (1 : Fin 2) * 128 + 128
    rw [e5]; omega

/-- After the first region its output table is x·W1 of the region's two input arrays. -/
theorem final (c : Dev nD) :
    (dat0 V c).arrAt 2 cfg0.N = Cert.ReferenceIdeal.Spec.dense1 (V c main_arg0) (V c main_arg4) :=
  (dat0 V c).arrAt_eq_of_cover 2 _ (fun t _ => flushed_eq V c t) cover

end Cert.KernelIdeal.Region0

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Region1.lean ====
/-
  The second dense stage, (lrelu(h + b1) ∘ mask)·W2, tile by tile.

  Point t of the 20 reads rows 5000·t … 5000·t + 4999 of h and of the mask, the bias as a one-row matrix and all of W2,
  and writes the same rows of the result: entry (p, q) of its tile is the sum over k < 128 of
  (lrelu(h[5000·t + p, k] + b1[k]) · mask[5000·t + p, k]) · W2[k, q]. That is entry (5000·t + p, q) of the host's
  stage on the whole arrays, and the tiles cover all rows.
-/
import proofs.«162216_j50087908606138_1_alg».proof.Proof.Gen.KernelIdeal.Frame
import proofs.«162216_j50087908606138_1_alg».proof.Proof.Gen.ReferenceIdeal
import proofs.«162216_j50087908606138_1_alg».proof.Proof.RefSpec
import proofs.«162216_j50087908606138_1_alg».proof.Proof.LibPlainContract
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import proofs.«162216_j50087908606138_1_alg».proof.Proof.LibLreluRows
import proofs.«162216_j50087908606138_1_alg».proof.Proof.KSpec
set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)
open Cert.LibLreluRows

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of a tile of the second stage, from the tile's rows of h and of the mask, the bias row and W2. -/
theorem pay_at (x0 : Vec Ideal S5000x128 .f32) (x1 : Vec Ideal S1x128 .f32) (x2 : Vec Ideal S5000x128 .f32)
    (x3 : Vec Ideal S128x64 .f32) (p : Fin 5000) (q : Fin 64) :
    k1_pay1 x0 x1 x2 x3 (ix2 p q)
      = ∑ k : Fin 128, (lr (x0 (ix2 p k) + x1 (ix2 (0 : Fin 1) k)) * x2 (ix2 p k)) * x3 (ix2 k q) := by
  unfold k1_pay1
  refine (Cert.LibPlainContract.matmul_plain_apply 5000 128 64 none _ _ p q).trans ?_
  refine Finset.sum_congr rfl fun k _ => ?_
  congr 1
  have e : (addf (F := Ideal) (φ := .f32) (shapeCast S5000x128 x0 shapeCasts_S5000x128_S5000x128)
      (broadcastTo S5000x128 (shapeCast S1x128 x1 shapeCasts_S1x128_S1x128) broadcasts_S1x128_S5000x128)) (ix2 p k)
      = x0 (ix2 p k) + x1 (ix2 (0 : Fin 1) k) := by
    rw [addf_apply, shapeCast_self, rowDown_apply]
  rw [← e]; rfl

/-- Entry (P, q) of the host's second stage. -/
theorem dense2_at (h : (⟨Cert.ReferenceIdeal.S100000x128, .f32⟩ : BufTy).Contents (Elt Ideal))
    (b1 : (⟨Cert.ReferenceIdeal.S128, .f32⟩ : BufTy).Contents (Elt Ideal))
    (mask : (⟨Cert.ReferenceIdeal.S100000x128, .f32⟩ : BufTy).Contents (Elt Ideal))
    (w2 : (⟨Cert.ReferenceIdeal.S128x64, .f32⟩ : BufTy).Contents (Elt Ideal)) (P : Fin 100000) (q : Fin 64) :
    Cert.ReferenceIdeal.Spec.dense2 h b1 mask w2 (ix2 P q)
      = ∑ k : Fin 128, (lr (h (ix2 P k) + b1 (ix1 k)) * mask (ix2 P k)) * w2 (ix2 k q) := by
  unfold Cert.ReferenceIdeal.Spec.dense2
  refine (Cert.LibPlainContract.dotGeneral_plain_apply 100000 128 64 none .single _ w2 P q).trans ?_
  refine Finset.sum_congr rfl fun k _ => ?_
  congr 1
  have e : (addf (F := Ideal) (φ := .f32) h (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b1))) (ix2 P k)
      = h (ix2 P k) + b1 (ix1 k) := by
    rw [addf_apply, biasRows_apply]
  rw [← e]; rfl

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 20 := lt_of_lt_of_eq t.isLt N_1

/-- Row p of tile t is row 5000·t + p of the table. -/
def rowOf (t : Fin cfg1.N) (p : Fin 5000) : Fin 100000 := ⟨t.val * 5000 + p.val, by have := t_lt t; have := p.isLt; omega⟩

theorem emb0 (t : Fin cfg1.N) (p : Fin 5000) (k : Fin 128) :
    ((cfg1.win 0).blk t).view.emb (ix2 p k) = ix2 (rowOf t p) k := by
  obtain ⟨e0, e1, e2, e3, e4, e5, e6, e7, e8, e9⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb1 (t : Fin cfg1.N) (z : Fin 1) (k : Fin 128) :
    ((cfg1.win 1).blk t).view.emb (ix2 z k) = ix2 z k := by
  obtain ⟨e0, e1, e2, e3, e4, e5, e6, e7, e8, e9⟩ := idx_facts t
  funext a; apply Fin.ext
  match a with
  | ⟨0, _⟩ => show win1_1.index t (0 : Fin 2) * 1 + 1 * z.val = z.val; omega
  | ⟨1, _⟩ => show win1_1.index t (1 : Fin 2) * 128 + 1 * k.val = k.val; omega

theorem emb2 (t : Fin cfg1.N) (p : Fin 5000) (k : Fin 128) :
    ((cfg1.win 2).blk t).view.emb (ix2 p k) = ix2 (rowOf t p) k := by
  obtain ⟨e0, e1, e2, e3, e4, e5, e6, e7, e8, e9⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

theorem emb3 (t : Fin cfg1.N) (k : Fin 128) (q : Fin 64) :
    ((cfg1.win 3).blk t).view.emb (ix2 k q) = ix2 k q := by
  obtain ⟨e0, e1, e2, e3, e4, e5, e6, e7, e8, e9⟩ := idx_facts t
  funext a; apply Fin.ext
  match a with
  | ⟨0, _⟩ => show win1_3.index t (0 : Fin 2) * 128 + 1 * k.val = k.val; omega
  | ⟨1, _⟩ => show win1_3.index t (1 : Fin 2) * 64 + 1 * q.val = q.val; omega

theorem emb4 (t : Fin cfg1.N) (p : Fin 5000) (q : Fin 64) :
    ((cfg1.win 4).blk t).view.emb (ix2 p q) = ix2 (rowOf t p) q := by
  obtain ⟨e0, e1, e2, e3, e4, e5, e6, e7, e8, e9⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point t writes back is its tile of the host's second stage of the region's input arrays, the one-row input
    being the bias vector b1 as a row. -/
theorem flushed_eq (c : Dev nD) (b1 : (⟨Cert.ReferenceIdeal.S128, .f32⟩ : BufTy).Contents (Elt Ideal))
    (hb : V c main_v14 = Cert.KernelIdeal.KSpec.row128 b1) (t : Fin cfg1.N) :
    (dat1 V c).flushed 4 t = ((cfg1.win 4).blk t).view.read (Elt Ideal)
      (Cert.ReferenceIdeal.Spec.dense2 (V c main_v13) b1 (V c main_arg12) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (ix2 p q)
      = Cert.ReferenceIdeal.Spec.dense2 (V c main_v13) b1 (V c main_arg12) (V c main_arg6) (((cfg1.win 4).blk t).view.emb (ix2 p q))
  refine (pay_at (iblk1 V c 0 t) (iblk1 V c 1 t) (iblk1 V c 2 t) (iblk1 V c 3 t) p q).trans ?_
  rw [emb4, dense2_at]
  refine Finset.sum_congr rfl fun k _ => ?_
  have h0 : iblk1 V c 0 t (ix2 p k) = V c main_v13 (ix2 (rowOf t p) k) := by
    show V c main_v13 (((cfg1.win 0).blk t).view.emb (ix2 p k)) = _
    rw [emb0]
  have h1 : iblk1 V c 1 t (ix2 (0 : Fin 1) k) = b1 (ix1 k) := by
    show V c main_v14 (((cfg1.win 1).blk t).view.emb (ix2 (0 : Fin 1) k)) = _
    rw [emb1, hb]
    exact rowCast_apply _ b1 k
  have h2 : iblk1 V c 2 t (ix2 p k) = V c main_arg12 (ix2 (rowOf t p) k) := by
    show V c main_arg12 (((cfg1.win 2).blk t).view.emb (ix2 p k)) = _
    rw [emb2]
  have h3 : iblk1 V c 3 t (ix2 k q) = V c main_arg6 (ix2 k q) := by
    show V c main_arg6 (((cfg1.win 3).blk t).view.emb (ix2 k q)) = _
    rw [emb3]
  rw [h0, h1, h2, h3]

theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v15).slice (win1_4.rect t)).set ↔ _
  rw [View.set_slice_whole, Rect.mem_set_unit]
  exact Iff.rfl

theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, _⟩ (1 : Fin 2) * 64 ≤ (i 1).val ∧ (i 1).val < win1_4.index ⟨(i 0).val / 5000, _⟩ (1 : Fin 2) * 64 + 64
    rw [e9]; omega

/-- After the second region its output table is the host's second stage of the region's input arrays. -/
theorem final (c : Dev nD) (b1 : (⟨Cert.ReferenceIdeal.S128, .f32⟩ : BufTy).Contents (Elt Ideal))
    (hb : V c main_v14 = Cert.KernelIdeal.KSpec.row128 b1) :
    (dat1 V c).arrAt 4 cfg1.N = Cert.ReferenceIdeal.Spec.dense2 (V c main_v13) b1 (V c main_arg12) (V c main_arg6) :=
  (dat1 V c).arrAt_eq_of_cover 4 _ (fun t _ => flushed_eq V c b1 hb t) cover

end Cert.KernelIdeal.Region1

end
-- ==== Proof.Region2.lean ====
/-
  The third dense stage, lrelu(lrelu(h + b2)·W3 + b3)·W4 + b4, tile by tile.

  Point t of the 20 reads rows 5000·t … 5000·t + 4999 of h, the three biases as one-row matrices and all of W3 and W4,
  and writes the same rows of the result: entry (p, q) of its tile is
      (sum over j < 32 of lrelu((sum over k < 64 of lrelu(h[5000·t + p, k] + b2[k]) · W3[k, j]) + b3[j]) · W4[j, q]) + b4[q].
  That is entry (5000·t + p, q) of the host's stage on the whole arrays, and the tiles cover all rows.
-/
import proofs.«162216_j50087908606138_1_alg».proof.Proof.Gen.KernelIdeal.Frame
import proofs.«162216_j50087908606138_1_alg».proof.Proof.Gen.ReferenceIdeal
import proofs.«162216_j50087908606138_1_alg».proof.Proof.RefSpec
import proofs.«162216_j50087908606138_1_alg».proof.Proof.LibPlainContract
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import proofs.«162216_j50087908606138_1_alg».proof.Proof.LibLreluRows
import proofs.«162216_j50087908606138_1_alg».proof.Proof.KSpec
set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat Cfg Window)
open Cert.LibLreluRows

variable (V : (c : Dev nD) → (b : Ref sig .tc) → Buf (Elt Ideal) ((c : Thread nD τ).loc b))

theorem hz : (![0, 0] : Fin 2 → Nat) = fun _ => 0 := funext fun a => by fin_cases a <;> rfl

/-- lrelu(h + b2) on a tile. -/
def act (x0 : Vec Ideal S5000x64 .f32) (x1 : Vec Ideal S1x64 .f32) : FVec Ideal S5000x64 .f32 :=
  lrv (addf (shapeCast S5000x64 x0 shapeCasts_S5000x64_S5000x64)
    (broadcastTo S5000x64 (shapeCast S1x64 x1 shapeCasts_S1x64_S1x64) broadcasts_S1x64_S5000x64))

theorem act_at (x0 : Vec Ideal S5000x64 .f32) (x1 : Vec Ideal S1x64 .f32) (p : Fin 5000) (k : Fin 64) :
    act x0 x1 (ix2 p k) = lr (x0 (ix2 p k) + x1 (ix2 (0 : Fin 1) k)) := by
  unfold act
  rw [lrv_apply, addf_apply, shapeCast_self, rowDown_apply]

/-- lrelu(lrelu(h + b2)·W3 + b3) on a tile. -/
def hid (x0 : Vec Ideal S5000x64 .f32) (x1 : Vec Ideal S1x64 .f32) (x2 : Vec Ideal S64x32 .f32) (x3 : Vec Ideal S1x32 .f32) :
    FVec Ideal S5000x32 .f32 :=
  lrv (addf (matmul dot_S5000x64_S64x32_S5000x32_1_0_0_1_n_n none (truncf .bf16 (act x0 x1) bitsLt_bf16_f32)
      (truncf .bf16 x2 bitsLt_bf16_f32) (constant S5000x32 .f32 0x00000000#32))
    (broadcastTo S5000x32 (shapeCast S1x32 x3 shapeCasts_S1x32_S1x32) broadcasts_S1x32_S5000x32))

theorem hid_at (x0 : Vec Ideal S5000x64 .f32) (x1 : Vec Ideal S1x64 .f32) (x2 : Vec Ideal S64x32 .f32) (x3 : Vec Ideal S1x32 .f32)
    (p : Fin 5000) (j : Fin 32) :
    hid x0 x1 x2 x3 (ix2 p j)
      = lr ((∑ k : Fin 64, lr (x0 (ix2 p k) + x1 (ix2 (0 : Fin 1) k)) * x2 (ix2 k j)) + x3 (ix2 (0 : Fin 1) j)) := by
  unfold hid
  rw [lrv_apply, addf_apply, rowDown_apply]
  congr 2
  refine (Cert.LibPlainContract.matmul_plain_apply 5000 64 32 none _ _ p j).trans ?_
  refine Finset.sum_congr rfl fun k _ => ?_
  congr 1
  exact act_at x0 x1 p k

/-- The tile's payload in these words. -/
theorem pay_eq (x0 : Vec Ideal S5000x64 .f32) (x1 : Vec Ideal S1x64 .f32) (x2 : Vec Ideal S64x32 .f32) (x3 : Vec Ideal S1x32 .f32)
    (x4 : Vec Ideal S32x16 .f32) (x5 : Vec Ideal S1x16 .f32) :
    k2_pay1 x0 x1 x2 x3 x4 x5
      = addf (matmul dot_S5000x32_S32x16_S5000x16_1_0_0_1_n_n none (truncf .bf16 (hid x0 x1 x2 x3) bitsLt_bf16_f32)
          (truncf .bf16 x4 bitsLt_bf16_f32) (constant S5000x16 .f32 0x00000000#32))
        (broadcastTo S5000x16 (shapeCast S1x16 x5 shapeCasts_S1x16_S1x16) broadcasts_S1x16_S5000x16) := rfl

/-- Entry (p, q) of a tile of the third stage. -/
theorem pay_at (x0 : Vec Ideal S5000x64 .f32) (x1 : Vec Ideal S1x64 .f32) (x2 : Vec Ideal S64x32 .f32) (x3 : Vec Ideal S1x32 .f32)
    (x4 : Vec Ideal S32x16 .f32) (x5 : Vec Ideal S1x16 .f32) (p : Fin 5000) (q : Fin 16) :
    k2_pay1 x0 x1 x2 x3 x4 x5 (ix2 p q)
      = (∑ j : Fin 32, lr ((∑ k : Fin 64, lr (x0 (ix2 p k) + x1 (ix2 (0 : Fin 1) k)) * x2 (ix2 k j)) + x3 (ix2 (0 : Fin 1) j))
            * x4 (ix2 j q)) + x5 (ix2 (0 : Fin 1) q) := by
  rw [pay_eq, addf_apply, rowDown_apply]
  congr 1
  refine (Cert.LibPlainContract.matmul_plain_apply 5000 32 16 none _ _ p q).trans ?_
  refine Finset.sum_congr rfl fun j _ => ?_
  congr 1
  exact hid_at x0 x1 x2 x3 p j

/-- Entry (P, q) of the host's third stage. -/
theorem dense3_at (h : (⟨Cert.ReferenceIdeal.S100000x64, .f32⟩ : BufTy).Contents (Elt Ideal))
    (b2 : (⟨Cert.ReferenceIdeal.S64, .f32⟩ : BufTy).Contents (Elt Ideal))
    (w3 : (⟨Cert.ReferenceIdeal.S64x32, .f32⟩ : BufTy).Contents (Elt Ideal))
    (b3 : (⟨Cert.ReferenceIdeal.S32, .f32⟩ : BufTy).Contents (Elt Ideal))
    (w4 : (⟨Cert.ReferenceIdeal.S32x16, .f32⟩ : BufTy).Contents (Elt Ideal))
    (b4 : (⟨Cert.ReferenceIdeal.S16, .f32⟩ : BufTy).Contents (Elt Ideal)) (P : Fin 100000) (q : Fin 16) :
    Cert.ReferenceIdeal.Spec.dense3 h b2 w3 b3 w4 b4 (ix2 P q)
      = (∑ j : Fin 32, lr ((∑ k : Fin 64, lr (h (ix2 P k) + b2 (ix1 k)) * w3 (ix2 k j)) + b3 (ix1 j)) * w4 (ix2 j q))
          + b4 (ix1 q) := by
  unfold Cert.ReferenceIdeal.Spec.dense3
  rw [addf_apply, biasRows_apply]
  congr 1
  refine (Cert.LibPlainContract.dotGeneral_plain_apply 100000 32 16 none .single _ w4 P q).trans ?_
  refine Finset.sum_congr rfl fun j _ => ?_
  congr 1
  unfold Cert.ReferenceIdeal.Spec.lrelu32
  refine (lrelu_bcast_apply _ _ (ix2 P j)).trans (congrArg lr ?_)
  rw [addf_apply, biasRows_apply]
  congr 1
  refine (Cert.LibPlainContract.dotGeneral_plain_apply 100000 64 32 none .single _ w3 P j).trans ?_
  refine Finset.sum_congr rfl fun k _ => ?_
  congr 1
  unfold Cert.ReferenceIdeal.Spec.lrelu64
  refine (lrelu_bcast_apply _ _ (ix2 P k)).trans (congrArg lr ?_)
  rw [addf_apply, biasRows_apply]

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 20 := lt_of_lt_of_eq t.isLt N_2

/-- Row p of tile t is row 5000·t + p of the table. -/
def rowOf (t : Fin cfg2.N) (p : Fin 5000) : Fin 100000 := ⟨t.val * 5000 + p.val, by have := t_lt t; have := p.isLt; omega⟩

theorem emb0 (t : Fin cfg2.N) (p : Fin 5000) (k : Fin 64) :
    ((cfg2.win 0).blk t).view.emb (ix2 p k) = ix2 (rowOf t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem emb1 (t : Fin cfg2.N) (z : Fin 1) (k : Fin 64) :
    ((cfg2.win 1).blk t).view.emb (ix2 z k) = ix2 z k := by
  obtain ⟨-, -, e2, e3, -⟩ := idx_facts t
  funext a; apply Fin.ext
  match a with
  | ⟨0, _⟩ => show win2_1.index t (0 : Fin 2) * 1 + 1 * z.val = z.val; omega
  | ⟨1, _⟩ => show win2_1.index t (1 : Fin 2) * 64 + 1 * k.val = k.val; omega

theorem emb2 (t : Fin cfg2.N) (k : Fin 64) (j : Fin 32) :
    ((cfg2.win 2).blk t).view.emb (ix2 k j) = ix2 k j := by
  obtain ⟨-, -, -, -, e4, e5, -⟩ := idx_facts t
  funext a; apply Fin.ext
  match a with
  | ⟨0, _⟩ => show win2_2.index t (0 : Fin 2) * 64 + 1 * k.val = k.val; omega
  | ⟨1, _⟩ => show win2_2.index t (1 : Fin 2) * 32 + 1 * j.val = j.val; omega

theorem emb3 (t : Fin cfg2.N) (z : Fin 1) (j : Fin 32) :
    ((cfg2.win 3).blk t).view.emb (ix2 z j) = ix2 z j := by
  obtain ⟨-, -, -, -, -, -, e6, e7, -⟩ := idx_facts t
  funext a; apply Fin.ext
  match a with
  | ⟨0, _⟩ => show win2_3.index t (0 : Fin 2) * 1 + 1 * z.val = z.val; omega
  | ⟨1, _⟩ => show win2_3.index t (1 : Fin 2) * 32 + 1 * j.val = j.val; omega

theorem emb4 (t : Fin cfg2.N) (j : Fin 32) (q : Fin 16) :
    ((cfg2.win 4).blk t).view.emb (ix2 j q) = ix2 j q := by
  obtain ⟨-, -, -, -, -, -, -, -, e8, e9, -⟩ := idx_facts t
  funext a; apply Fin.ext
  match a with
  | ⟨0, _⟩ => show win2_4.index t (0 : Fin 2) * 32 + 1 * j.val = j.val; omega
  | ⟨1, _⟩ => show win2_4.index t (1 : Fin 2) * 16 + 1 * q.val = q.val; omega

theorem emb5 (t : Fin cfg2.N) (z : Fin 1) (q : Fin 16) :
    ((cfg2.win 5).blk t).view.emb (ix2 z q) = ix2 z q := by
  obtain ⟨-, -, -, -, -, -, -, -, -, -, e10, e11, -⟩ := idx_facts t
  funext a; apply Fin.ext
  match a with
  | ⟨0, _⟩ => show win2_5.index t (0 : Fin 2) * 1 + 1 * z.val = z.val; omega
  | ⟨1, _⟩ => show win2_5.index t (1 : Fin 2) * 16 + 1 * q.val = q.val; omega

theorem emb6 (t : Fin cfg2.N) (p : Fin 5000) (q : Fin 16) :
    ((cfg2.win 6).blk t).view.emb (ix2 p q) = ix2 (rowOf t p) q := by
  obtain ⟨-, -, -, -, -, -, -, -, -, -, -, -, e12, e13⟩ := idx_facts t
  funext a; apply Fin.ext
  match a with
  | ⟨0, _⟩ => show win2_6.index t (0 : Fin 2) * 5000 + 1 * p.val = t.val * 5000 + p.val; omega
  | ⟨1, _⟩ => show win2_6.index t (1 : Fin 2) * 16 + 1 * q.val = q.val; omega

/-- What point t writes back is its tile of the host's third stage of the region's input arrays, the three one-row
    inputs being the bias vectors b2, b3, b4 as rows. -/
theorem flushed_eq (c : Dev nD) (b2 : (⟨Cert.ReferenceIdeal.S64, .f32⟩ : BufTy).Contents (Elt Ideal))
    (b3 : (⟨Cert.ReferenceIdeal.S32, .f32⟩ : BufTy).Contents (Elt Ideal))
    (b4 : (⟨Cert.ReferenceIdeal.S16, .f32⟩ : BufTy).Contents (Elt Ideal))
    (hb2 : V c main_v29 = Cert.KernelIdeal.KSpec.row64 b2) (hb3 : V c main_v30 = Cert.KernelIdeal.KSpec.row32 b3)
    (hb4 : V c main_v31 = Cert.KernelIdeal.KSpec.row16 b4) (t : Fin cfg2.N) :
    (dat2 V c).flushed 6 t = ((cfg2.win 6).blk t).view.read (Elt Ideal)
      (Cert.ReferenceIdeal.Spec.dense3 (V c main_v28) b2 (V c main_arg8) b3 (V c main_arg10) b4) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x32) hz,
    View.ld_unit_zero (S := S1x32) hz, View.ld_unit_zero (S := S32x16) hz, View.ld_unit_zero (S := S1x16) hz]
  funext j
  obtain ⟨p, q, rfl⟩ : ∃ (p : Fin 5000) (q : Fin 16), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
      = Cert.ReferenceIdeal.Spec.dense3 (V c main_v28) b2 (V c main_arg8) b3 (V c main_arg10) b4 (((cfg2.win 6).blk t).view.emb (ix2 p q))
  refine (pay_at (iblk2 V c 0 t) (iblk2 V c 1 t) (iblk2 V c 2 t) (iblk2 V c 3 t) (iblk2 V c 4 t) (iblk2 V c 5 t) p q).trans ?_
  rw [emb6, dense3_at]
  have h0 : ∀ k : Fin 64, iblk2 V c 0 t (ix2 p k) = V c main_v28 (ix2 (rowOf t p) k) := fun k => by
    show V c main_v28 (((cfg2.win 0).blk t).view.emb (ix2 p k)) = _
    rw [emb0]
  have h1 : ∀ k : Fin 64, iblk2 V c 1 t (ix2 (0 : Fin 1) k) = b2 (ix1 k) := fun k => by
    show V c main_v29 (((cfg2.win 1).blk t).view.emb (ix2 (0 : Fin 1) k)) = _
    rw [emb1, hb2]
    exact rowCast_apply _ b2 k
  have h2 : ∀ (k : Fin 64) (j : Fin 32), iblk2 V c 2 t (ix2 k j) = V c main_arg8 (ix2 k j) := fun k j => by
    show V c main_arg8 (((cfg2.win 2).blk t).view.emb (ix2 k j)) = _
    rw [emb2]
  have h3 : ∀ j : Fin 32, iblk2 V c 3 t (ix2 (0 : Fin 1) j) = b3 (ix1 j) := fun j => by
    show V c main_v30 (((cfg2.win 3).blk t).view.emb (ix2 (0 : Fin 1) j)) = _
    rw [emb3, hb3]
    exact rowCast_apply _ b3 j
  have h4 : ∀ j : Fin 32, iblk2 V c 4 t (ix2 j q) = V c main_arg10 (ix2 j q) := fun j => by
    show V c main_arg10 (((cfg2.win 4).blk t).view.emb (ix2 j q)) = _
    rw [emb4]
  have h5 : iblk2 V c 5 t (ix2 (0 : Fin 1) q) = b4 (ix1 q) := by
    show V c main_v31 (((cfg2.win 5).blk t).view.emb (ix2 (0 : Fin 1) q)) = _
    rw [emb5, hb4]
    exact rowCast_apply _ b4 q
  simp only [h0, h1, h2, h3, h4, h5]

theorem mem_blk (t : Fin cfg2.N) (i : S100000x16.Idx) :
    i ∈ ((cfg2.win 6).blk t).view.set ↔ ∀ a : Fin 2, win2_6.index t a * S5000x16.size a ≤ (i a).val ∧ (i a).val < win2_6.index t a * S5000x16.size a + S5000x16.size a := by
  show i ∈ ((View.whole main_v32).slice (win2_6.rect t)).set ↔ _
  rw [View.set_slice_whole, Rect.mem_set_unit]
  exact Iff.rfl

theorem cover (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  have hN : cfg2.N = 20 := N_2
  refine ⟨⟨(i 0).val / 5000, by rw [hN]; omega⟩, flush2_6 _, ?_⟩
  rw [mem_blk]
  obtain ⟨-, -, -, -, -, -, -, -, -, -, -, -, e12, e13⟩ := idx_facts ⟨(i 0).val / 5000, by rw [hN]; omega⟩
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e12]; show (i 0).val / 5000 * 5000 ≤ (i 0).val ∧ (i 0).val < (i 0).val / 5000 * 5000 + 5000; omega
  | ⟨1, _⟩ =>
    show win2_6.index ⟨(i 0).val / 5000, _⟩ (1 : Fin 2) * 16 ≤ (i 1).val ∧ (i 1).val < win2_6.index ⟨(i 0).val / 5000, _⟩ (1 : Fin 2) * 16 + 16
    rw [e13]; omega

/-- After the third region its output table is the host's third stage of the region's input arrays. -/
theorem final (c : Dev nD) (b2 : (⟨Cert.ReferenceIdeal.S64, .f32⟩ : BufTy).Contents (Elt Ideal))
    (b3 : (⟨Cert.ReferenceIdeal.S32, .f32⟩ : BufTy).Contents (Elt Ideal))
    (b4 : (⟨Cert.ReferenceIdeal.S16, .f32⟩ : BufTy).Contents (Elt Ideal))
    (hb2 : V c main_v29 = Cert.KernelIdeal.KSpec.row64 b2) (hb3 : V c main_v30 = Cert.KernelIdeal.KSpec.row32 b3)
    (hb4 : V c main_v31 = Cert.KernelIdeal.KSpec.row16 b4) :
    (dat2 V c).arrAt 6 cfg2.N
      = Cert.ReferenceIdeal.Spec.dense3 (V c main_v28) b2 (V c main_arg8) b3 (V c main_arg10) b4 :=
  (dat2 V c).arrAt_eq_of_cover 6 _ (fun t _ => flushed_eq V c b2 b3 b4 hb2 hb3 hb4 t) cover

end Cert.KernelIdeal.Region2

end
-- ==== Proof.Bridge.lean ====
/-
  The tiled program computes the network.

  Its result buffer ends at what the third region's write-backs leave; each region's output table is the host's dense
  stage of that region's input arrays (the three tile-by-tile facts); between the regions the host forms A·h exactly as
  the reference does and lays each bias vector out as a row; and the argument arrays are never written. Chained from
  the result back to the launch, the result is the network of the thirteen arguments.
-/
import proofs.«162216_j50087908606138_1_alg».proof.Proof.KRun
import proofs.«162216_j50087908606138_1_alg».proof.Proof.Region0
import proofs.«162216_j50087908606138_1_alg».proof.Proof.Region1
import proofs.«162216_j50087908606138_1_alg».proof.Proof.Region2

noncomputable section

namespace Cert.KernelIdeal.Bridge

open Idealize.ShloMosaic Idealize.ShloMosaic.TcCoe Idealize.SL.Sem Cert.KernelIdeal Cert.KernelIdeal.Gen

/-- The message passing of the tiled program's host stretch is the reference's (the same operations on the same
    shapes, stated once in each program's vocabulary). -/
theorem pass128_eq (h : (⟨S100000x128, .f32⟩ : BufTy).Contents (Elt Ideal)) (row col : (⟨S1600000, .i32⟩ : BufTy).Contents (Elt Ideal))
    (ew : (⟨S1600000, .f32⟩ : BufTy).Contents (Elt Ideal)) :
    Cert.KernelIdeal.KSpec.pass128 h row col ew = Cert.ReferenceIdeal.Spec.pass128 h row col ew := rfl

theorem pass64_eq (h : (⟨S100000x64, .f32⟩ : BufTy).Contents (Elt Ideal)) (row col : (⟨S1600000, .i32⟩ : BufTy).Contents (Elt Ideal))
    (ew : (⟨S1600000, .f32⟩ : BufTy).Contents (Elt Ideal)) :
    Cert.KernelIdeal.KSpec.pass64 h row col ew = Cert.ReferenceIdeal.Spec.pass64 h row col ew := rfl

variable (m : (ℓ : Loc nD τ sig) → Buf (Elt Ideal) ℓ) (ρ : Dev nD → PrngReg)

/-- The result buffer after the run is the network of the launch contents of the thirteen arguments. -/
theorem result_eq (c : Dev nD) :
    Gen.W5 m ρ c (Proc.devRef .tc main_v32)
      = Cert.ReferenceIdeal.Spec.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  rw [Cert.KernelIdeal.KRun.out_eq,
    Cert.KernelIdeal.Region2.final (Gen.V4 m ρ) c _ _ _ (Cert.KernelIdeal.KRun.V4_v29 m ρ c) (Cert.KernelIdeal.KRun.V4_v30 m ρ c)
      (Cert.KernelIdeal.KRun.V4_v31 m ρ c),
    Cert.KernelIdeal.KRun.V4_v28, Cert.KernelIdeal.KRun.V4_arg8, Cert.KernelIdeal.KRun.V4_arg10, Cert.KernelIdeal.KRun.V3_v15,
    Cert.KernelIdeal.Region1.final (Gen.V2 m ρ) c _ (Cert.KernelIdeal.KRun.V2_v14 m ρ c),
    Cert.KernelIdeal.KRun.V2_v13, Cert.KernelIdeal.KRun.V2_arg12, Cert.KernelIdeal.KRun.V2_arg6, Cert.KernelIdeal.KRun.V1_v0,
    Cert.KernelIdeal.Region0.final (Gen.V0 m ρ) c, Cert.KernelIdeal.KRun.V0_arg0, Cert.KernelIdeal.KRun.V0_arg4,
    pass128_eq, pass64_eq]
  rfl

/-- The tiled program's run: it terminates, its result is the network of the arguments, the arguments are unchanged. -/
theorem run : θ_run defs (onTc (τ := τ) (main (F := Ideal))) ⟨m, fun _ => 0, ρ⟩ (fun r => ∀ c : Dev nD,
      r.2.mem ((c.tc : Thread nD τ).loc main_v32)
        = Cert.ReferenceIdeal.Spec.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (Cert.KernelIdeal.KRun.run m ρ)

end Cert.KernelIdeal.Bridge

end
-- ==== Proof.RefRun.lean ====
/-
  The run of the reference network, read back as one term of its thirteen arguments.

  The reference is a straight line of host operations: its three calls of lrelu are each the callee's six
  operations and the choice (select) of the function it calls in turn, over the buffers of that call. Listed in order
  they are seventy-three operations,
      x·W1;  A·(x·W1) (gather the rows col, times the edge weights, scatter-add at the rows row);  + b1;  lrelu;  ∘ mask;  ·W2;
      A·h again over 64 columns;  + b2;  lrelu;  ·W3 + b3;  lrelu;  ·W4 + b4.
  Every weakly fair execution runs them to the end; the result buffer then holds the fold of the operations over the
  launch contents, which is the composed term Spec.net of the arguments' contents, and no operation writes an argument.
-/
import proofs.«162216_j50087908606138_1_alg».proof.Proof.RefSpec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-- The reference network's operations in order, each call of lrelu replaced by the seven operations it runs
    (the zero, its table, the test v ≥ 0, the slope 0.2 converted to its own type, its table, 0.2·v, the choice). -/
abbrev ops : List (HloOp τ sig (Elt F)) :=
  [
    -- x·W1
    binary main_arg0 main_arg4 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    -- the first message passing, A·(x·W1): the edge weights as a column; the start rows (a negative node number counts from the
    -- end of the table); the gathered rows; their products with the weights; the scatter-add into a zero table at the rows `row`
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg2 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg2 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg2 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    -- + b1
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    -- lrelu: 0.2; the zero and its table, the test v ≥ 0, 0.2 (converted to its own type: the identity) and its table, 0.2·v, the choice
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v16) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v16) main_call0.v4 mulf,
    TRef.ternary main_call0.v1 (.of main_v16) main_call0.v4 main_call0.call0.v0 select,
    -- ∘ mask, ·W2
    binary main_v17 main_arg12 main_v18 (mulf : (⟨S100000x128, .f32⟩ : BufTy).Contents (Elt F) → (⟨S100000x128, .f32⟩ : BufTy).Contents (Elt F) → (⟨S100000x128, .f32⟩ : BufTy).Contents (Elt F)),
    binary main_v18 main_arg6 main_v19 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    -- the second message passing, A·h, over 64 columns
    unary main_arg3 main_v20 (broadcastInDim S1600000x1 ![0] bcast_S1600000_S1600000x1_0 : (⟨S1600000, .f32⟩ : BufTy).Contents (Elt F) → (⟨S1600000x1, .f32⟩ : BufTy).Contents (Elt F)),
    nullary main_c_2 (constantI S_ 32 0#32),
    unary main_c_2 main_v21 (broadcastInDim S1600000 ![] bcast_S_S1600000 : (⟨S_, .i32⟩ : BufTy).Contents (Elt F) → (⟨S1600000, .i32⟩ : BufTy).Contents (Elt F)),
    binary main_arg2 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v23 (broadcastInDim S1600000 ![] bcast_S_S1600000 : (⟨S_, .i32⟩ : BufTy).Contents (Elt F) → (⟨S1600000, .i32⟩ : BufTy).Contents (Elt F)),
    binary main_arg2 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg2 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v19 main_v26 main_v27 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v20 main_v28 (broadcastInDim S1600000x64 ![0, 1] bcast_S1600000x1_S1600000x64_0_1 : (⟨S1600000x1, .f32⟩ : BufTy).Contents (Elt F) → (⟨S1600000x64, .f32⟩ : BufTy).Contents (Elt F)),
    binary main_v28 main_v27 main_v29 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v30 (broadcastInDim S100000x64 ![] bcast_S_S100000x64 : (⟨S_, .f32⟩ : BufTy).Contents (Elt F) → (⟨S100000x64, .f32⟩ : BufTy).Contents (Elt F)),
    unary main_arg1 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    -- + b2
    unary main_arg7 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (addf : (⟨S100000x64, .f32⟩ : BufTy).Contents (Elt F) → (⟨S100000x64, .f32⟩ : BufTy).Contents (Elt F) → (⟨S100000x64, .f32⟩ : BufTy).Contents (Elt F)),
    -- lrelu
    nullary main_cst_5 (constant S_ .f32 0x3E4CCCCD#32),
    TRef.nullary main_call1.cst (constant S_ .f32 0x00000000#32),
    TRef.unary main_call1.cst main_call1.v0 (broadcastInDim S100000x64 ![] bcast_S_S100000x64),
    TRef.binary (.of main_v35) main_call1.v0 main_call1.v1 (cmpf .oge),
    TRef.unary (.of main_cst_5) main_call1.v2 id,
    TRef.unary main_call1.v2 main_call1.v3 (broadcastInDim S100000x64 ![] bcast_S_S100000x64),
    TRef.binary main_call1.v3 (.of main_v35) main_call1.v4 mulf,
    TRef.ternary main_call1.v1 (.of main_v35) main_call1.v4 main_call1.call0.v0 select,
    -- ·W3 + b3
    binary main_v36 main_arg8 main_v37 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg9 main_v38 (broadcastInDim S1x32 ![1] bcast_S32_S1x32_1 : (⟨S32, .f32⟩ : BufTy).Contents (Elt F) → (⟨S1x32, .f32⟩ : BufTy).Contents (Elt F)),
    unary main_v38 main_v39 (broadcastInDim S100000x32 ![0, 1] bcast_S1x32_S100000x32_0_1 : (⟨S1x32, .f32⟩ : BufTy).Contents (Elt F) → (⟨S100000x32, .f32⟩ : BufTy).Contents (Elt F)),
    binary main_v37 main_v39 main_v40 (addf : (⟨S100000x32, .f32⟩ : BufTy).Contents (Elt F) → (⟨S100000x32, .f32⟩ : BufTy).Contents (Elt F) → (⟨S100000x32, .f32⟩ : BufTy).Contents (Elt F)),
    -- lrelu
    nullary main_cst_6 (constant S_ .f32 0x3E4CCCCD#32),
    TRef.nullary main_call2.cst (constant S_ .f32 0x00000000#32),
    TRef.unary main_call2.cst main_call2.v0 (broadcastInDim S100000x32 ![] bcast_S_S100000x32),
    TRef.binary (.of main_v40) main_call2.v0 main_call2.v1 (cmpf .oge),
    TRef.unary (.of main_cst_6) main_call2.v2 id,
    TRef.unary main_call2.v2 main_call2.v3 (broadcastInDim S100000x32 ![] bcast_S_S100000x32),
    TRef.binary main_call2.v3 (.of main_v40) main_call2.v4 mulf,
    TRef.ternary main_call2.v1 (.of main_v40) main_call2.v4 main_call2.call0.v0 select,
    -- ·W4 + b4
    binary main_v41 main_arg10 main_v42 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg11 main_v43 (broadcastInDim S1x16 ![1] bcast_S16_S1x16_1 : (⟨S16, .f32⟩ : BufTy).Contents (Elt F) → (⟨S1x16, .f32⟩ : BufTy).Contents (Elt F)),
    unary main_v43 main_v44 (broadcastInDim S100000x16 ![0, 1] bcast_S1x16_S100000x16_0_1 : (⟨S1x16, .f32⟩ : BufTy).Contents (Elt F) → (⟨S100000x16, .f32⟩ : BufTy).Contents (Elt F)),
    binary main_v42 main_v44 main_v45 (addf : (⟨S100000x16, .f32⟩ : BufTy).Contents (Elt F) → (⟨S100000x16, .f32⟩ : BufTy).Contents (Elt F) → (⟨S100000x16, .f32⟩ : BufTy).Contents (Elt F)) ]

-- the comparison descends once per operation, through the bodies' own chains
set_option maxRecDepth 8192 in
/-- The program is that straight line: a call is its function's body, whose chain of steps followed by the rest of
    the program is, by the definition of sequencing, one chain — both sides compute to the same steps in order. -/
theorem main_eq (c : Dev nD) : main (F := F) c = seq ops := rfl

attribute [local irreducible] Host.gather Host.scatterAdd in
set_option maxRecDepth 8192 in
set_option maxHeartbeats 1600000 in
/-- The fold at the result buffer is the network's term: each operation's result at its own buffer is its function
    of the operands' contents and at any other buffer what was there; what is left is the composed term, which
    Spec.net spells stage by stage. The gathers and the scatter-adds stay folded: the equation never looks inside them. -/
theorem out_eq (V : Valuation τ sig (Elt F)) :
    after ops V (main_v45 : DevRef τ sig)
      = Spec.net (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub ..⟩

/-- From any memory with zero counters every weakly fair execution of the program terminates, and every final
    state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run: the result buffer ends at the network's term of the arguments' launch contents, and the
    thirteen arguments are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v45)
          = Spec.net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.ReferenceIdeal.RefRun

end
-- ==== Proof.lean ====
/-
  A three-layer graph network on 100000 nodes and 1600000 weighted edges, computed by three tiled dense stages with the
  message passing A·h on the host between them, against the same network written with whole-array operations.

  Both programs compute
      out = lrelu(lrelu(A·(lrelu(A·(x·W1) + b1) ∘ mask · W2) + b2)·W3 + b3)·W4 + b4
  with the same operations in the same order; they differ only in that the dense stages of the first run tile by tile
  (20 tiles of 5000 rows, each row of a stage depending on the same row of its input only) and feed the matrix unit
  through a narrower float format, which is the identity on exact values. So at exact values the two results are equal
  entry by entry, with no condition on the inputs: every sum is the same sum of the same terms. The word-level program
  is idealized by reading its own text at exact values (no rewrite), so nothing is owed for that step.
-/
import proofs.«162216_j50087908606138_1_alg».proof.Defs
import proofs.«162216_j50087908606138_1_alg».proof.Proof.Gen.Kernel
import proofs.«162216_j50087908606138_1_alg».proof.Proof.Gen.Kernel.Frame
import proofs.«162216_j50087908606138_1_alg».proof.Proof.Gen.KernelIdeal
import proofs.«162216_j50087908606138_1_alg».proof.Proof.Gen.KernelIdeal.Frame
import proofs.«162216_j50087908606138_1_alg».proof.Proof.Gen.ReferenceIdeal
import proofs.«162216_j50087908606138_1_alg».proof.Proof.Gen.Pre_finite_inputs
import proofs.«162216_j50087908606138_1_alg».proof.Proof.Bridge
import proofs.«162216_j50087908606138_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does the program read at exact values. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the network of those arguments in their result. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12⟩ := hagree c
  rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
